-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x8192 : Shape := ⟨2, ![2048, 8192]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S2048x8192 .f32) (main_arg5 : FVec F S8192 .f32) (main_arg6 : FVec F S8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S2048x8192 .f32) (main_arg4 : FVec F S2048x8192 .f32) (main_arg5 : FVec F S8192 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_v13 main_v16
-- ==== Kernel.lean ====
abbrev S4096x2048 : Shape := ⟨2, ![4096, 2048]⟩
abbrev S2048x8192 : Shape := ⟨2, ![2048, 8192]⟩
abbrev S8192 : Shape := ⟨1, ![8192]⟩
abbrev S4x8x256 : Shape := ⟨3, ![4, 8, 256]⟩
abbrev S8x4x256 : Shape := ⟨3, ![8, 4, 256]⟩
abbrev S1x8192 : Shape := ⟨2, ![1, 8192]⟩
abbrev S2048x4x8x256 : Shape := ⟨4, ![2048, 4, 8, 256]⟩
abbrev S2048x8x4x256 : Shape := ⟨4, ![2048, 8, 4, 256]⟩
abbrev S256x2048 : Shape := ⟨2, ![256, 2048]⟩
abbrev S2048x1024 : Shape := ⟨2, ![2048, 1024]⟩
abbrev S1x1024 : Shape := ⟨2, ![1, 1024]⟩
abbrev S256x256 : Shape := ⟨2, ![256, 256]⟩
abbrev S256x1024 : Shape := ⟨2, ![256, 1024]⟩

abbrev nBuf : Space → Nat
  | .hbm => 21
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x8192, .f32⟩
  | .hbm, ⟨4, _⟩ => ⟨S2048x8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S4x8x256, .f32⟩
  | .hbm, ⟨9, _⟩ => ⟨S8x4x256, .f32⟩
  | .hbm, ⟨10, _⟩ => ⟨S1x8192, .f32⟩
  | .hbm, ⟨11, _⟩ => ⟨S2048x4x8x256, .f32⟩
  | .hbm, ⟨12, _⟩ => ⟨S2048x8x4x256, .f32⟩
  | .hbm, ⟨13, _⟩ => ⟨S2048x8192, .f32⟩
  | .hbm, ⟨14, _⟩ => ⟨S2048x8192, .bf16⟩
  | .hbm, ⟨15, _⟩ => ⟨S2048x4x8x256, .f32⟩
  | .hbm, ⟨16, _⟩ => ⟨S2048x8x4x256, .f32⟩
  | .hbm, ⟨17, _⟩ => ⟨S2048x8192, .f32⟩
  | .hbm, ⟨18, _⟩ => ⟨S2048x8192, .bf16⟩
  | .hbm, ⟨19, _⟩ => ⟨S4096x2048, .f32⟩
  | .hbm, ⟨20, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S8192_S4x8x256 : S8192.ShapeCasts S4x8x256
  transposes_S4x8x256_S8x4x256_1_0_2 : S4x8x256.Transposes [1, 0, 2] S8x4x256
  shapeCasts_S8x4x256_S1x8192 : S8x4x256.ShapeCasts S1x8192
  shapeCasts_S2048x8192_S2048x4x8x256 : S2048x8192.ShapeCasts S2048x4x8x256
  transposes_S2048x4x8x256_S2048x8x4x256_0_2_1_3 : S2048x4x8x256.Transposes [0, 2, 1, 3] S2048x8x4x256
  shapeCasts_S2048x8x4x256_S2048x8192 : S2048x8x4x256.ShapeCasts S2048x8192
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  inb_S256x256_S256x256_0_0 : ∀ a, (![0, 0] : Fin 2 → Nat) a + S256x256.size a ≤ S256x256.size a
  h_S256x256 : 0 < S256x256.numel
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x8192.size a
  hwx0_2 : ∀ i : grid0.Coords, EltTy.bits .bf16 = 32 ∨ (Rect.block (s := S2048x8192) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x8192.size a
  hwx0_3 : ∀ i : grid0.Coords, EltTy.bits .bf16 = 32 ∨ (Rect.block (s := S2048x8192) S2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S4096x2048.size a
  hwx0_5 : ∀ i : grid0.Coords, EltTy.bits .f32 = 32 ∨ (Rect.block (s := S4096x2048) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S4096x2048.size a
  hwx0_6 : ∀ i : grid0.Coords, EltTy.bits .f32 = 32 ∨ (Rect.block (s := S4096x2048) S256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S4096x2048.size a
  hwx0_7 : ∀ i : grid0.Coords, EltTy.bits .f32 = 32 ∨ (Rect.block (s := S4096x2048) S256x256.size (cc0_transform_7 i) (hinb0_7 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x8192, .f32⟩
  | .hbm, ⟨4, _⟩ => ⟨S2048x8192, .f32⟩
  | .hbm, ⟨5, _⟩ => ⟨S8192, .f32⟩
  | .hbm, ⟨6, _⟩ => ⟨S8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LstmSpec.lean ====
/-
  One step of a long short-term memory cell, for a batch of 4096 rows, 2048 input features and 2048 hidden units,
  as two whole-array functions of the seven argument arrays over the extended reals.

  For batch row `b` and column `n < 8192` the PRE-ACTIVATION is

      pre b n = (((∑ k, x[b,k] · Wi[k,n]) + (∑ k, h[b,k] · Wh[k,n])) + bi[n]) + bh[n].

  The four gates of hidden unit `u` sit in the columns `u`, `2048 + u`, `4096 + u`, `6144 + u` (input, forget,
  candidate, output). With `σ t = 1 / (1 + e^(-t))`,

      c'[b,u] = σ (pre b (2048 + u)) · c[b,u] + σ (pre b u) · tanh (pre b (4096 + u)),
      h'[b,u] = σ (pre b (6144 + u)) · tanh (c'[b,u]).

  A program that first adds the two bias vectors and then adds their sum to the two products groups the four summands
  as `(P + Q) + (bi + bh)`; addition of extended reals is associative (also at the infinities), so that is `pre`.
-/
import Idealize.ShloMosaic.PureOps.Ideal
import Idealize.ShloMosaic.Lib.ValueIdx

noncomputable section

open scoped BigOperators

namespace Cert.Lstm

open Idealize.ShloMosaic Idealize.ShloMosaic.ValueIdx

/-- Activations and cell states: batch row by feature. -/
abbrev Act : Type := (⟨2, ![4096, 2048]⟩ : Shape).Idx → EReal
/-- A weight matrix: feature by gate column. -/
abbrev Wgt : Type := (⟨2, ![2048, 8192]⟩ : Shape).Idx → EReal
/-- A bias vector: one entry per gate column. -/
abbrev Bia : Type := (⟨1, ![8192]⟩ : Shape).Idx → EReal

/-- The column of gate `g` (0 input, 1 forget, 2 candidate, 3 output) for hidden unit `u`. -/
def gcol (g : Fin 4) (u : Fin 2048) : Fin 8192 :=
  ⟨2048 * g.val + u.val, by have := g.isLt; have := u.isLt; omega⟩

/-- The two matrix products at row `b`, column `n`, added. -/
def prods (x h : Act) (wi wh : Wgt) (b : Fin 4096) (n : Fin 8192) : EReal :=
  (∑ k : Fin 2048, x (ix2 b k) * wi (ix2 k n)) + (∑ k : Fin 2048, h (ix2 b k) * wh (ix2 k n))

/-- The pre-activation at row `b`, column `n`: the products, then one bias, then the other. -/
def pre (x h : Act) (wi wh : Wgt) (bi bh : Bia) (b : Fin 4096) (n : Fin 8192) : EReal :=
  (prods x h wi wh b n + bi (ix1 n)) + bh (ix1 n)

/-- THE LAW between the two arrangements: the bias vectors added first, their sum added to the products. -/
theorem pre_eq_biases_first (x h : Act) (wi wh : Wgt) (bi bh : Bia) (b : Fin 4096) (n : Fin 8192) :
    prods x h wi wh b n + (bi (ix1 n) + bh (ix1 n)) = pre x h wi wh bi bh b n :=
  (add_assoc _ _ _).symm

/-- The new cell state at row `b`, hidden unit `u`. -/
def cAt (x h c : Act) (wi wh : Wgt) (bi bh : Bia) (b : Fin 4096) (u : Fin 2048) : EReal :=
  Ideal.logistic (pre x h wi wh bi bh b (gcol 1 u)) * c (ix2 b u)
    + Ideal.logistic (pre x h wi wh bi bh b (gcol 0 u)) * Ideal.tanh (pre x h wi wh bi bh b (gcol 2 u))

/-- The new hidden state at row `b`, hidden unit `u`. -/
def hAt (x h c : Act) (wi wh : Wgt) (bi bh : Bia) (b : Fin 4096) (u : Fin 2048) : EReal :=
  Ideal.logistic (pre x h wi wh bi bh b (gcol 3 u)) * Ideal.tanh (cAt x h c wi wh bi bh b u)

/-- The new cell state, as an array. -/
def cNew (x h c : Act) (wi wh : Wgt) (bi bh : Bia) : Act := fun i => cAt x h c wi wh bi bh (i 0) (i 1)

/-- The new hidden state, as an array. -/
def hNew (x h c : Act) (wi wh : Wgt) (bi bh : Bia) : Act := fun i => hAt x h c wi wh bi bh (i 0) (i 1)

theorem cNew_apply (x h c : Act) (wi wh : Wgt) (bi bh : Bia) (b : Fin 4096) (u : Fin 2048) :
    cNew x h c wi wh bi bh (ix2 b u) = cAt x h c wi wh bi bh b u := rfl

theorem hNew_apply (x h c : Act) (wi wh : Wgt) (bi bh : Bia) (b : Fin 4096) (u : Fin 2048) :
    hNew x h c wi wh bi bh (ix2 b u) = hAt x h c wi wh bi bh b u := rfl

end Cert.Lstm

end
-- ==== Proof.Regroup.lean ====
/-
  The regrouping of gate columns by tiles of 256 hidden units, read at an index.

  A matrix with 8192 = 4 · 8 · 256 columns, column `2048 g + 256 j + q` holding gate `g` of hidden unit `256 j + q`,
  is reshaped to `[2048, 4, 8, 256]`, its two middle axes are exchanged, and it is reshaped back to `[2048, 8192]`.
  Column `1024 j + 256 g + q` of the result is column `2048 g + 256 j + q` of the operand: the four gates of the 256
  hidden units of tile `j` are now next to one another. The same for a vector of 8192 entries laid out as one row.
-/
import Idealize.ShloMosaic.Lib.Pipeline.Value
import Idealize.ShloMosaic.Lib.ValueIdx

noncomputable section

namespace Cert.Lstm

open Idealize.ShloMosaic Idealize.ShloMosaic.ValueIdx

/-- Column of gate `g`, unit `q` of tile `j`, AFTER the regrouping (tile-major). -/
def tileCol (j : Fin 8) (g : Fin 4) (q : Fin 256) : Fin 8192 :=
  ⟨1024 * j.val + 256 * g.val + q.val, by have := j.isLt; have := g.isLt; have := q.isLt; omega⟩

/-- Column of gate `g`, unit `q` of tile `j`, BEFORE the regrouping (gate-major). -/
def gateCol (j : Fin 8) (g : Fin 4) (q : Fin 256) : Fin 8192 :=
  ⟨2048 * g.val + 256 * j.val + q.val, by have := j.isLt; have := g.isLt; have := q.isLt; omega⟩

/-- A regrouped matrix at row `k`, column `tileCol j g q`, is the matrix at row `k`, column `gateCol j g q`. -/
theorem regroup_matrix {α : Type} (w : (⟨2, ![2048, 8192]⟩ : Shape).Idx → α)
    (h1 : (⟨2, ![2048, 8192]⟩ : Shape).ShapeCasts ⟨4, ![2048, 4, 8, 256]⟩)
    (h2 : (⟨4, ![2048, 4, 8, 256]⟩ : Shape).Transposes [0, 2, 1, 3] ⟨4, ![2048, 8, 4, 256]⟩)
    (h3 : (⟨4, ![2048, 8, 4, 256]⟩ : Shape).ShapeCasts ⟨2, ![2048, 8192]⟩)
    (k : Fin 2048) (j : Fin 8) (g : Fin 4) (q : Fin 256) :
    shapeCast ⟨2, ![2048, 8192]⟩
        (transpose ⟨4, ![2048, 8, 4, 256]⟩ [0, 2, 1, 3] (shapeCast ⟨4, ![2048, 4, 8, 256]⟩ w h1) h2) h3
        (ix2 k (tileCol j g q))
      = w (ix2 k (gateCol j g q)) := by
  have hk := k.isLt; have hj := j.isLt; have hg := g.isLt; have hq := q.isLt
  -- [2048, 8192] at (k, 1024 j + 256 g + q) has the row-major position of [2048, 8, 4, 256] at (k, j, g, q)
  refine (shapeCast_apply _ h3 (ix2 k (tileCol j g q)) (ix4 k j g q) (by
    rw [Shape.rowMajor_val_four, Shape.rowMajor_val_two]
    show ((k.val * 8 + j.val) * 4 + g.val) * 256 + q.val = k.val * 8192 + (1024 * j.val + 256 * g.val + q.val)
    omega)).trans ?_
  -- exchanging the middle axes: (k, j, g, q) reads (k, g, j, q)
  refine (transpose_apply [0, 2, 1, 3] _ h2 (ix4 k j g q) (ix4 k g j q)
    (fun b => match b with | ⟨0, _⟩ => rfl | ⟨1, _⟩ => rfl | ⟨2, _⟩ => rfl | ⟨3, _⟩ => rfl)).trans ?_
  -- [2048, 4, 8, 256] at (k, g, j, q) has the row-major position of [2048, 8192] at (k, 2048 g + 256 j + q)
  exact shapeCast_apply w h1 (ix4 k g j q) (ix2 k (gateCol j g q)) (by
    rw [Shape.rowMajor_val_two, Shape.rowMajor_val_four]
    show k.val * 8192 + (2048 * g.val + 256 * j.val + q.val) = ((k.val * 4 + g.val) * 8 + j.val) * 256 + q.val
    omega)

/-- A regrouped vector, laid out as one row, at column `tileCol j g q` is the vector at `gateCol j g q`. -/
theorem regroup_row {α : Type} (v : (⟨1, ![8192]⟩ : Shape).Idx → α)
    (h1 : (⟨1, ![8192]⟩ : Shape).ShapeCasts ⟨3, ![4, 8, 256]⟩)
    (h2 : (⟨3, ![4, 8, 256]⟩ : Shape).Transposes [1, 0, 2] ⟨3, ![8, 4, 256]⟩)
    (h3 : (⟨3, ![8, 4, 256]⟩ : Shape).ShapeCasts ⟨2, ![1, 8192]⟩)
    (j : Fin 8) (g : Fin 4) (q : Fin 256) :
    shapeCast ⟨2, ![1, 8192]⟩ (transpose ⟨3, ![8, 4, 256]⟩ [1, 0, 2] (shapeCast ⟨3, ![4, 8, 256]⟩ v h1) h2) h3
        (ix2 (0 : Fin 1) (tileCol j g q))
      = v (ix1 (gateCol j g q)) := by
  have hj := j.isLt; have hg := g.isLt; have hq := q.isLt
  refine (shapeCast_apply _ h3 (ix2 (0 : Fin 1) (tileCol j g q)) (ix3 j g q) (by
    rw [Shape.rowMajor_val_three, Shape.rowMajor_val_two]
    show (j.val * 4 + g.val) * 256 + q.val = 0 * 8192 + (1024 * j.val + 256 * g.val + q.val)
    omega)).trans ?_
  refine (transpose_apply [1, 0, 2] _ h2 (ix3 j g q) (ix3 g j q)
    (fun b => match b with | ⟨0, _⟩ => rfl | ⟨1, _⟩ => rfl | ⟨2, _⟩ => rfl)).trans ?_
  exact shapeCast_apply v h1 (ix3 g j q) (ix1 (gateCol j g q)) (by
    rw [Shape.rowMajor_val_one, Shape.rowMajor_val_three]
    show 2048 * g.val + 256 * j.val + q.val = (g.val * 8 + j.val) * 256 + q.val
    omega)

/-- The gate-major column of tile `j`, unit `q` is the column of gate `g` for hidden unit `256 j + q`. -/
theorem gateCol_val (j : Fin 8) (g : Fin 4) (q : Fin 256) : (gateCol j g q).val = 2048 * g.val + (256 * j.val + q.val) := by
  show 2048 * g.val + 256 * j.val + q.val = _
  omega

end Cert.Lstm

end
-- ==== Proof.CellBlock.lean ====
/-
  What one grid point computes, entry by entry.

  The body multiplies a block of 256 batch rows of the inputs and of the previous hidden states by a block of 1024
  regrouped weight columns — the four gates of 256 hidden units, gate `g` of unit `q` in lane `256 g + q` —, adds the
  two products and then the matching 1024 entries of the summed bias row. Entry `(p, 256 g + q)` of that sum is the
  pre-activation of gate `g` for the block's row `p` and hidden unit `q`, with the biases added to one another first;
  by associativity of addition that is the pre-activation of the specification. The two stored blocks apply the logistic
  function, the hyperbolic tangent, products and one sum to four lanes of it and to the old cell state, in the order the
  specification does.
-/
import proofs.«160175_j54649163874591_2_alg».proof.Proof.Gen.KernelIdeal.Value
import proofs.«160175_j54649163874591_2_alg».proof.Proof.LibMatProd
import proofs.«160175_j54649163874591_2_alg».proof.Proof.LstmSpec
import proofs.«160175_j54649163874591_2_alg».proof.Proof.Regroup
import Idealize.ShloMosaic.Lib.ValueLayout

set_option synthInstance.maxSize 4096

noncomputable section

open scoped BigOperators

namespace Cert.KernelIdeal.Cell

open Cert.KernelIdeal Cert.KernelIdeal.Gen Cert.Lstm Idealize.ShloMosaic Idealize.ShloMosaic.ValueIdx

/-- Lane of gate `g`, unit `q`, among the 1024 columns one grid point sees. -/
def lane (g : Fin 4) (q : Fin 256) : Fin 1024 :=
  ⟨256 * g.val + q.val, by have := g.isLt; have := q.isLt; omega⟩

/-- THE GATES VECTOR AT AN ENTRY: the two products, added, plus the bias row. -/
theorem gates_apply (P0 P1 : FVec Ideal S256x2048 .f32) (P2 P3 : FVec Ideal S2048x1024 .bf16) (P4 : FVec Ideal S1x1024 .f32)
    (p : Fin 256) (n : Fin 1024) :
    k0_pay1 (F := Ideal) P0 P1 P2 P3 P4 (ix2 p n)
      = ((∑ k : Fin 2048, P0 (ix2 p k) * P2 (ix2 k n)) + (∑ k : Fin 2048, P1 (ix2 p k) * P3 (ix2 k n)))
          + P4 (ix2 (0 : Fin 1) n) := by
  have e0 : matmul (F := Ideal) dot_S256x2048_S2048x1024_S256x1024_1_0_0_1_n_n none (truncf .bf16 P0 bitsLt_bf16_f32)
      (shapeCast S2048x1024 P2 shapeCasts_S2048x1024_S2048x1024) (constant S256x1024 .f32 0x00000000#32) (ix2 p n)
      = ∑ k : Fin 2048, P0 (ix2 p k) * P2 (ix2 k n) := by
    rw [shapeCast_self]
    exact Cert.MatProd.matmul_plain_zero_apply none (truncf .bf16 P0 bitsLt_bf16_f32) P2 p n
  have e1 : matmul (F := Ideal) dot_S256x2048_S2048x1024_S256x1024_1_0_0_1_n_n none (truncf .bf16 P1 bitsLt_bf16_f32)
      (shapeCast S2048x1024 P3 shapeCasts_S2048x1024_S2048x1024) (constant S256x1024 .f32 0x00000000#32) (ix2 p n)
      = ∑ k : Fin 2048, P1 (ix2 p k) * P3 (ix2 k n) := by
    rw [shapeCast_self]
    exact Cert.MatProd.matmul_plain_zero_apply none (truncf .bf16 P1 bitsLt_bf16_f32) P3 p n
  have e2 : broadcastTo S256x1024 (shapeCast S1x1024 P4 shapeCasts_S1x1024_S1x1024) broadcasts_S1x1024_S256x1024 (ix2 p n)
      = P4 (ix2 (0 : Fin 1) n) := by
    rw [shapeCast_self]
    exact broadcastTo_1b_ab_apply P4 broadcasts_S1x1024_S256x1024 p n
  exact congrArg₂ (· + ·) (congrArg₂ (· + ·) e0 e1) e2

/-- The gate-major column of tile `J`, unit `q` is the specification's column of gate `g` for hidden unit `256 J + q`. -/
theorem gateCol_eq_gcol (J : Fin 8) (g : Fin 4) (q : Fin 256) (u : Fin 2048) (hu : u.val = 256 * J.val + q.val) :
    gateCol J g q = gcol g u := by
  refine Fin.ext ?_
  rw [gateCol_val]
  show 2048 * g.val + (256 * J.val + q.val) = 2048 * g.val + u.val
  omega

/-- THE PRE-ACTIVATION IN A LANE. For a block whose row `p` is batch row `b` and whose lanes are the regrouped columns of
    tile `J`, the gates vector at `(p, lane g q)` is the specification's pre-activation of gate `g` at row `b`, hidden
    unit `u = 256 J + q`: the sums agree term by term, and the biases added first or last is associativity. -/
theorem gates_eq_pre (x h : Act) (wi wh : Wgt) (bi bh : Bia)
    (P0 P1 : FVec Ideal S256x2048 .f32) (P2 P3 : FVec Ideal S2048x1024 .bf16) (P4 : FVec Ideal S1x1024 .f32)
    (b : Fin 4096) (J : Fin 8) (p q : Fin 256) (u : Fin 2048) (hu : u.val = 256 * J.val + q.val)
    (h0 : ∀ k : Fin 2048, P0 (ix2 p k) = x (ix2 b k))
    (h1 : ∀ k : Fin 2048, P1 (ix2 p k) = h (ix2 b k))
    (h2 : ∀ (k : Fin 2048) (g : Fin 4), P2 (ix2 k (lane g q)) = wi (ix2 k (gateCol J g q)))
    (h3 : ∀ (k : Fin 2048) (g : Fin 4), P3 (ix2 k (lane g q)) = wh (ix2 k (gateCol J g q)))
    (h4 : ∀ g : Fin 4, P4 (ix2 (0 : Fin 1) (lane g q)) = bi (ix1 (gateCol J g q)) + bh (ix1 (gateCol J g q)))
    (g : Fin 4) :
    k0_pay1 (F := Ideal) P0 P1 P2 P3 P4 (ix2 p (lane g q)) = pre x h wi wh bi bh b (gcol g u) := by
  have hc : gateCol J g q = gcol g u := gateCol_eq_gcol J g q u hu
  have s0 : (∑ k : Fin 2048, P0 (ix2 p k) * P2 (ix2 k (lane g q))) = ∑ k : Fin 2048, x (ix2 b k) * wi (ix2 k (gcol g u)) :=
    Finset.sum_congr rfl fun k _ => by rw [h0 k, h2 k g, hc]
  have s1 : (∑ k : Fin 2048, P1 (ix2 p k) * P3 (ix2 k (lane g q))) = ∑ k : Fin 2048, h (ix2 b k) * wh (ix2 k (gcol g u)) :=
    Finset.sum_congr rfl fun k _ => by rw [h1 k, h3 k g, hc]
  refine (gates_apply P0 P1 P2 P3 P4 p (lane g q)).trans ?_
  rw [s0, s1, h4 g, hc]
  exact pre_eq_biases_first x h wi wh bi bh b (gcol g u)

/-- ENTRY `(p, q)` OF THE NEW CELL STATE'S BLOCK is the specification's new cell state at `(b, u)`. -/
theorem cell_block (x h c : Act) (wi wh : Wgt) (bi bh : Bia)
    (P0 P1 : FVec Ideal S256x2048 .f32) (P2 P3 : FVec Ideal S2048x1024 .bf16) (P4 : FVec Ideal S1x1024 .f32)
    (P5 : FVec Ideal S256x256 .f32)
    (b : Fin 4096) (J : Fin 8) (p q : Fin 256) (u : Fin 2048) (hu : u.val = 256 * J.val + q.val)
    (h0 : ∀ k : Fin 2048, P0 (ix2 p k) = x (ix2 b k))
    (h1 : ∀ k : Fin 2048, P1 (ix2 p k) = h (ix2 b k))
    (h2 : ∀ (k : Fin 2048) (g : Fin 4), P2 (ix2 k (lane g q)) = wi (ix2 k (gateCol J g q)))
    (h3 : ∀ (k : Fin 2048) (g : Fin 4), P3 (ix2 k (lane g q)) = wh (ix2 k (gateCol J g q)))
    (h4 : ∀ g : Fin 4, P4 (ix2 (0 : Fin 1) (lane g q)) = bi (ix1 (gateCol J g q)) + bh (ix1 (gateCol J g q)))
    (h5 : P5 (ix2 p q) = c (ix2 b u)) :
    Value.E7 (F := Ideal) P0 P1 P2 P3 P4 P5 (ix2 p q) = cAt x h c wi wh bi bh b u := by
  have hpre := gates_eq_pre x h wi wh bi bh P0 P1 P2 P3 P4 b J p q u hu h0 h1 h2 h3 h4
  have i0 : Value.ix7_0 (ix2 p q) = ix2 p (lane 1 q) :=
    funext fun a => match a with | ⟨0, _⟩ => rfl | ⟨1, _⟩ => Fin.ext (by show q.val + 256 = 256 * 1 + q.val; omega)
  have i1 : Value.ix7_1 (ix2 p q) = ix2 p q :=
    funext fun a => match a with | ⟨0, _⟩ => rfl | ⟨1, _⟩ => rfl
  have i2 : Value.ix7_2 (ix2 p q) = ix2 p (lane 0 q) :=
    funext fun a => match a with | ⟨0, _⟩ => rfl | ⟨1, _⟩ => Fin.ext (by show q.val = 256 * 0 + q.val; omega)
  have i3 : Value.ix7_3 (ix2 p q) = ix2 p (lane 2 q) :=
    funext fun a => match a with | ⟨0, _⟩ => rfl | ⟨1, _⟩ => Fin.ext (by show q.val + 512 = 256 * 2 + q.val; omega)
  show FloatOps.addf
      (FloatOps.mulf (FloatOps.logistic (k0_pay1 (F := Ideal) P0 P1 P2 P3 P4 (Value.ix7_0 (ix2 p q)))) (P5 (Value.ix7_1 (ix2 p q))))
      (FloatOps.mulf (FloatOps.logistic (k0_pay1 (F := Ideal) P0 P1 P2 P3 P4 (Value.ix7_2 (ix2 p q))))
        (FloatOps.tanh (k0_pay1 (F := Ideal) P0 P1 P2 P3 P4 (Value.ix7_3 (ix2 p q))))) = _
  rw [i0, i1, i2, i3, hpre 1, hpre 0, hpre 2, h5]
  rfl

/-- ENTRY `(p, q)` OF THE NEW HIDDEN STATE'S BLOCK is the specification's new hidden state at `(b, u)`. -/
theorem hidden_block (x h c : Act) (wi wh : Wgt) (bi bh : Bia)
    (P0 P1 : FVec Ideal S256x2048 .f32) (P2 P3 : FVec Ideal S2048x1024 .bf16) (P4 : FVec Ideal S1x1024 .f32)
    (P5 : FVec Ideal S256x256 .f32)
    (b : Fin 4096) (J : Fin 8) (p q : Fin 256) (u : Fin 2048) (hu : u.val = 256 * J.val + q.val)
    (h0 : ∀ k : Fin 2048, P0 (ix2 p k) = x (ix2 b k))
    (h1 : ∀ k : Fin 2048, P1 (ix2 p k) = h (ix2 b k))
    (h2 : ∀ (k : Fin 2048) (g : Fin 4), P2 (ix2 k (lane g q)) = wi (ix2 k (gateCol J g q)))
    (h3 : ∀ (k : Fin 2048) (g : Fin 4), P3 (ix2 k (lane g q)) = wh (ix2 k (gateCol J g q)))
    (h4 : ∀ g : Fin 4, P4 (ix2 (0 : Fin 1) (lane g q)) = bi (ix1 (gateCol J g q)) + bh (ix1 (gateCol J g q)))
    (h5 : P5 (ix2 p q) = c (ix2 b u)) :
    Value.E6 (F := Ideal) P0 P1 P2 P3 P4 P5 (ix2 p q) = hAt x h c wi wh bi bh b u := by
  have hpre := gates_eq_pre x h wi wh bi bh P0 P1 P2 P3 P4 b J p q u hu h0 h1 h2 h3 h4
  have i0 : Value.ix6_0 (ix2 p q) = ix2 p (lane 3 q) :=
    funext fun a => match a with | ⟨0, _⟩ => rfl | ⟨1, _⟩ => Fin.ext (by show q.val + 768 = 256 * 3 + q.val; omega)
  have i1 : Value.ix6_1 (ix2 p q) = ix2 p (lane 1 q) :=
    funext fun a => match a with | ⟨0, _⟩ => rfl | ⟨1, _⟩ => Fin.ext (by show q.val + 256 = 256 * 1 + q.val; omega)
  have i2 : Value.ix6_2 (ix2 p q) = ix2 p q :=
    funext fun a => match a with | ⟨0, _⟩ => rfl | ⟨1, _⟩ => rfl
  have i3 : Value.ix6_3 (ix2 p q) = ix2 p (lane 0 q) :=
    funext fun a => match a with | ⟨0, _⟩ => rfl | ⟨1, _⟩ => Fin.ext (by show q.val = 256 * 0 + q.val; omega)
  have i4 : Value.ix6_4 (ix2 p q) = ix2 p (lane 2 q) :=
    funext fun a => match a with | ⟨0, _⟩ => rfl | ⟨1, _⟩ => Fin.ext (by show q.val + 512 = 256 * 2 + q.val; omega)
  show FloatOps.mulf (FloatOps.logistic (k0_pay1 (F := Ideal) P0 P1 P2 P3 P4 (Value.ix6_0 (ix2 p q))))
      (FloatOps.tanh (FloatOps.addf
        (FloatOps.mulf (FloatOps.logistic (k0_pay1 (F := Ideal) P0 P1 P2 P3 P4 (Value.ix6_1 (ix2 p q)))) (P5 (Value.ix6_2 (ix2 p q))))
        (FloatOps.mulf (FloatOps.logistic (k0_pay1 (F := Ideal) P0 P1 P2 P3 P4 (Value.ix6_3 (ix2 p q))))
          (FloatOps.tanh (k0_pay1 (F := Ideal) P0 P1 P2 P3 P4 (Value.ix6_4 (ix2 p q))))))) = _
  rw [i0, i1, i2, i3, i4, hpre 3, hpre 1, hpre 0, hpre 2, h5]
  rfl

end Cert.KernelIdeal.Cell

end
-- ==== Proof.HostArrays.lean ====
/-
  The three arrays the host writes before the launch, as functions of the arguments.

  Each weight matrix is reshaped to `[2048, 4, 8, 256]`, its two middle axes are exchanged, it is reshaped back to
  `[2048, 8192]` and its float format is changed (the identity over the extended reals): column `1024 j + 256 g + q` of
  what the launch finds is column `2048 g + 256 j + q` of the argument. The two bias vectors are added entry by entry, and
  the sum is regrouped in the same way into one row.
-/
import proofs.«160175_j54649163874591_2_alg».proof.Proof.Gen.KernelIdeal.Frame
import proofs.«160175_j54649163874591_2_alg».proof.Proof.Regroup
import proofs.«160175_j54649163874591_2_alg».proof.Proof.LstmSpec
import Idealize.ShloMosaic.Lib.StableHlo.Run
import Idealize.ShloMosaic.Lib.Pipeline.Value
import Idealize.ShloMosaic.Lib.ValueIdx

set_option synthInstance.maxSize 4096

noncomputable section

namespace Cert.KernelIdeal.Cell

open Cert.KernelIdeal Cert.KernelIdeal.Gen Cert.Lstm Idealize.ShloMosaic Idealize.ShloMosaic.TcCoe Idealize.SL.Sem
  Idealize.ShloMosaic.ValueIdx

variable (m : (ℓ : Loc nD τ sig) → Buf (Elt Ideal) ℓ)

/-- The regrouped input weights, as the launch finds them. -/
theorem V_wi (c : Dev nD) :
    (V m c main_v7 : S2048x8192.Idx → EReal)
      = (truncf (F := Ideal) .bf16 (shapeCast S2048x8192 (transpose S2048x8x4x256 [0, 2, 1, 3]
          (shapeCast S2048x4x8x256 (m ((c : Thread nD τ).loc main_arg3) : FVec Ideal S2048x8192 .f32)
            shapeCasts_S2048x8192_S2048x4x8x256)
          transposes_S2048x4x8x256_S2048x8x4x256_0_2_1_3) shapeCasts_S2048x8x4x256_S2048x8192) bitsLt_bf16_f32
        : FVec Ideal S2048x8192 .bf16) := by
  dsimp only [Gen.V, Gen.hostOps0]
  after_results
  rfl

/-- The regrouped recurrent weights, as the launch finds them. -/
theorem V_wh (c : Dev nD) :
    (V m c main_v11 : S2048x8192.Idx → EReal)
      = (truncf (F := Ideal) .bf16 (shapeCast S2048x8192 (transpose S2048x8x4x256 [0, 2, 1, 3]
          (shapeCast S2048x4x8x256 (m ((c : Thread nD τ).loc main_arg4) : FVec Ideal S2048x8192 .f32)
            shapeCasts_S2048x8192_S2048x4x8x256)
          transposes_S2048x4x8x256_S2048x8x4x256_0_2_1_3) shapeCasts_S2048x8x4x256_S2048x8192) bitsLt_bf16_f32
        : FVec Ideal S2048x8192 .bf16) := by
  dsimp only [Gen.V, Gen.hostOps0]
  after_results
  rfl

/-- The summed and regrouped bias row, as the launch finds it. -/
theorem V_bias (c : Dev nD) :
    (V m c main_v3 : S1x8192.Idx → EReal)
      = (shapeCast S1x8192 (transpose S8x4x256 [1, 0, 2]
          (shapeCast S4x8x256
            (addf (F := Ideal) (s := S8192) (φ := .f32) (m ((c : Thread nD τ).loc main_arg5) : FVec Ideal S8192 .f32)
              (m ((c : Thread nD τ).loc main_arg6) : FVec Ideal S8192 .f32))
            shapeCasts_S8192_S4x8x256)
          transposes_S4x8x256_S8x4x256_1_0_2) shapeCasts_S8x4x256_S1x8192 : FVec Ideal S1x8192 .f32) := by
  dsimp only [Gen.V, Gen.hostOps0]
  after_results
  rfl

/-- The regrouped input weights at row `k`, tile `j`, gate `g`, unit `q`. -/
theorem V_wi_apply (c : Dev nD) (wi : Wgt) (hwi : wi = m ((c : Thread nD τ).loc main_arg3))
    (k : Fin 2048) (j : Fin 8) (g : Fin 4) (q : Fin 256) :
    (V m c main_v7 : S2048x8192.Idx → EReal) (ix2 k (tileCol j g q)) = wi (ix2 k (gateCol j g q)) := by
  subst hwi
  refine (congrFun (V_wi m c) (ix2 k (tileCol j g q))).trans ?_
  -- the change of float format is the identity over the extended reals
  refine (truncf_apply (s := S2048x8192) (φ := .f32) (ψ := .bf16) _ bitsLt_bf16_f32 (ix2 k (tileCol j g q))).trans ?_
  exact regroup_matrix (m ((c : Thread nD τ).loc main_arg3) : S2048x8192.Idx → EReal) shapeCasts_S2048x8192_S2048x4x8x256
    transposes_S2048x4x8x256_S2048x8x4x256_0_2_1_3 shapeCasts_S2048x8x4x256_S2048x8192 k j g q

/-- The regrouped recurrent weights at row `k`, tile `j`, gate `g`, unit `q`. -/
theorem V_wh_apply (c : Dev nD) (wh : Wgt) (hwh : wh = m ((c : Thread nD τ).loc main_arg4))
    (k : Fin 2048) (j : Fin 8) (g : Fin 4) (q : Fin 256) :
    (V m c main_v11 : S2048x8192.Idx → EReal) (ix2 k (tileCol j g q)) = wh (ix2 k (gateCol j g q)) := by
  subst hwh
  refine (congrFun (V_wh m c) (ix2 k (tileCol j g q))).trans ?_
  refine (truncf_apply (s := S2048x8192) (φ := .f32) (ψ := .bf16) _ bitsLt_bf16_f32 (ix2 k (tileCol j g q))).trans ?_
  exact regroup_matrix (m ((c : Thread nD τ).loc main_arg4) : S2048x8192.Idx → EReal) shapeCasts_S2048x8192_S2048x4x8x256
    transposes_S2048x4x8x256_S2048x8x4x256_0_2_1_3 shapeCasts_S2048x8x4x256_S2048x8192 k j g q

/-- The bias row at tile `j`, gate `g`, unit `q`: the two bias vectors' entries, added. -/
theorem V_bias_apply (c : Dev nD) (bi bh : Bia) (hbi : bi = m ((c : Thread nD τ).loc main_arg5))
    (hbh : bh = m ((c : Thread nD τ).loc main_arg6)) (j : Fin 8) (g : Fin 4) (q : Fin 256) :
    (V m c main_v3 : S1x8192.Idx → EReal) (ix2 (0 : Fin 1) (tileCol j g q))
      = bi (ix1 (gateCol j g q)) + bh (ix1 (gateCol j g q)) := by
  subst hbi hbh
  exact (congrFun (V_bias m c) _).trans
    (regroup_row _ shapeCasts_S8192_S4x8x256 transposes_S4x8x256_S8x4x256_1_0_2 shapeCasts_S8x4x256_S1x8192 j g q)

end Cert.KernelIdeal.Cell

end
-- ==== Proof.CellArrays.lean ====
/-
  From blocks to whole arrays.

  The grid has 8 × 16 points; point `(J, I)` handles batch rows `256 I … 256 I + 255` and hidden units
  `256 J … 256 J + 255`. It sees those rows of the inputs and of the previous hidden states (all 2048 features), columns
  `1024 J … 1024 J + 1023` of the two regrouped weight matrices and of the bias row, and block `(I, J)` of the old cell
  state; it writes block `(I, J)` of each result. So what a point writes back is block `(I, J)` of the specification's
  array; the 128 blocks tile the `4096 × 2048` array, and each result array ends holding the specification's.
-/
import proofs.«160175_j54649163874591_2_alg».proof.Proof.Gen.KernelIdeal.Value
import proofs.«160175_j54649163874591_2_alg».proof.Proof.CellBlock
import proofs.«160175_j54649163874591_2_alg».proof.Proof.HostArrays
import Idealize.ShloMosaic.Lib.Pipeline.Value

set_option synthInstance.maxSize 4096

noncomputable section

namespace Cert.KernelIdeal.Cell

open Cert.KernelIdeal Cert.KernelIdeal.Gen Cert.Lstm Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 128 points: which block of its array each window shows at a point, relative
    to the block `(I, J)` the new cell state's window writes. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = win0_7.index t (1 : Fin 2)
    ∧ win0_3.index t (0 : Fin 2) = 0 ∧ win0_3.index t (1 : Fin 2) = win0_7.index t (1 : Fin 2)
    ∧ win0_4.index t (0 : Fin 2) = 0 ∧ win0_4.index t (1 : Fin 2) = win0_7.index t (1 : Fin 2)
    ∧ win0_5.index t (0 : Fin 2) = win0_7.index t (0 : Fin 2) ∧ win0_5.index t (1 : Fin 2) = win0_7.index t (1 : Fin 2)
    ∧ win0_6.index t (0 : Fin 2) = win0_7.index t (0 : Fin 2) ∧ win0_6.index t (1 : Fin 2) = win0_7.index t (1 : Fin 2)
    ∧ win0_7.index t (0 : Fin 2) ≤ 15 ∧ win0_7.index t (1 : Fin 2) ≤ 7 :=
  (by decide +kernel : ∀ t : Fin grid0.N, _)

/-- Every block `(I, J)` is some point's. -/
theorem idx_onto : ∀ (I : Fin 16) (J : Fin 8), ∃ t : Fin cfg0.N, win0_7.index t = ![I.val, J.val] :=
  (by decide +kernel : ∀ (I : Fin 16) (J : Fin 8), ∃ t : Fin grid0.N, win0_7.index t = ![I.val, J.val])

/-! ## Where each window's block sits in its array -/

theorem emb_rows0 (t : Fin cfg0.N) (p : Fin 256) (k : Fin 2048) (b : Fin 4096)
    (hb : b.val = 256 * win0_7.index t (0 : Fin 2) + p.val) :
    ((cfg0.win 0).blk t).view.emb (ix2 p k) = ix2 b k := by
  obtain ⟨e00, e01, -⟩ := idx_facts t
  funext a; apply Fin.ext
  match a with
  | ⟨0, _⟩ => show win0_0.index t (0 : Fin 2) * 256 + 1 * p.val = b.val; omega
  | ⟨1, _⟩ => show win0_0.index t (1 : Fin 2) * 2048 + 1 * k.val = k.val; omega

theorem emb_rows1 (t : Fin cfg0.N) (p : Fin 256) (k : Fin 2048) (b : Fin 4096)
    (hb : b.val = 256 * win0_7.index t (0 : Fin 2) + p.val) :
    ((cfg0.win 1).blk t).view.emb (ix2 p k) = ix2 b k := by
  obtain ⟨-, -, e10, e11, -⟩ := idx_facts t
  funext a; apply Fin.ext
  match a with
  | ⟨0, _⟩ => show win0_1.index t (0 : Fin 2) * 256 + 1 * p.val = b.val; omega
  | ⟨1, _⟩ => show win0_1.index t (1 : Fin 2) * 2048 + 1 * k.val = k.val; omega

theorem emb_cols2 (t : Fin cfg0.N) (k : Fin 2048) (g : Fin 4) (q : Fin 256) (J : Fin 8)
    (hJ : J.val = win0_7.index t (1 : Fin 2)) :
    ((cfg0.win 2).blk t).view.emb (ix2 k (lane g q)) = ix2 k (tileCol J g q) := by
  obtain ⟨-, -, -, -, e20, e21, -⟩ := idx_facts t
  funext a; apply Fin.ext
  match a with
  | ⟨0, _⟩ => show win0_2.index t (0 : Fin 2) * 2048 + 1 * k.val = k.val; omega
  | ⟨1, _⟩ => show win0_2.index t (1 : Fin 2) * 1024 + 1 * (256 * g.val + q.val) = 1024 * J.val + 256 * g.val + q.val; omega

theorem emb_cols3 (t : Fin cfg0.N) (k : Fin 2048) (g : Fin 4) (q : Fin 256) (J : Fin 8)
    (hJ : J.val = win0_7.index t (1 : Fin 2)) :
    ((cfg0.win 3).blk t).view.emb (ix2 k (lane g q)) = ix2 k (tileCol J g q) := by
  obtain ⟨-, -, -, -, -, -, e30, e31, -⟩ := idx_facts t
  funext a; apply Fin.ext
  match a with
  | ⟨0, _⟩ => show win0_3.index t (0 : Fin 2) * 2048 + 1 * k.val = k.val; omega
  | ⟨1, _⟩ => show win0_3.index t (1 : Fin 2) * 1024 + 1 * (256 * g.val + q.val) = 1024 * J.val + 256 * g.val + q.val; omega

theorem emb_cols4 (t : Fin cfg0.N) (g : Fin 4) (q : Fin 256) (J : Fin 8)
    (hJ : J.val = win0_7.index t (1 : Fin 2)) :
    ((cfg0.win 4).blk t).view.emb (ix2 (0 : Fin 1) (lane g q)) = ix2 (0 : Fin 1) (tileCol J g q) := by
  obtain ⟨-, -, -, -, -, -, -, -, e40, e41, -⟩ := idx_facts t
  funext a; apply Fin.ext
  match a with
  | ⟨0, _⟩ => show win0_4.index t (0 : Fin 2) * 1 + 1 * 0 = 0; omega
  | ⟨1, _⟩ => show win0_4.index t (1 : Fin 2) * 1024 + 1 * (256 * g.val + q.val) = 1024 * J.val + 256 * g.val + q.val; omega

theorem emb_tile5 (t : Fin cfg0.N) (p q : Fin 256) (b : Fin 4096) (u : Fin 2048)
    (hb : b.val = 256 * win0_7.index t (0 : Fin 2) + p.val) (hu : u.val = 256 * win0_7.index t (1 : Fin 2) + q.val) :
    ((cfg0.win 5).blk t).view.emb (ix2 p q) = ix2 b u := by
  obtain ⟨-, -, -, -, -, -, -, -, -, -, e50, e51, -⟩ := idx_facts t
  funext a; apply Fin.ext
  match a with
  | ⟨0, _⟩ => show win0_5.index t (0 : Fin 2) * 256 + 1 * p.val = b.val; omega
  | ⟨1, _⟩ => show win0_5.index t (1 : Fin 2) * 256 + 1 * q.val = u.val; omega

theorem emb_tile6 (t : Fin cfg0.N) (p q : Fin 256) (b : Fin 4096) (u : Fin 2048)
    (hb : b.val = 256 * win0_7.index t (0 : Fin 2) + p.val) (hu : u.val = 256 * win0_7.index t (1 : Fin 2) + q.val) :
    ((cfg0.win 6).blk t).view.emb (ix2 p q) = ix2 b u := by
  obtain ⟨-, -, -, -, -, -, -, -, -, -, -, -, e60, e61, -⟩ := idx_facts t
  funext a; apply Fin.ext
  match a with
  | ⟨0, _⟩ => show win0_6.index t (0 : Fin 2) * 256 + 1 * p.val = b.val; omega
  | ⟨1, _⟩ => show win0_6.index t (1 : Fin 2) * 256 + 1 * q.val = u.val; omega

theorem emb_tile7 (t : Fin cfg0.N) (p q : Fin 256) (b : Fin 4096) (u : Fin 2048)
    (hb : b.val = 256 * win0_7.index t (0 : Fin 2) + p.val) (hu : u.val = 256 * win0_7.index t (1 : Fin 2) + q.val) :
    ((cfg0.win 7).blk t).view.emb (ix2 p q) = ix2 b u := by
  funext a; apply Fin.ext
  match a with
  | ⟨0, _⟩ => show win0_7.index t (0 : Fin 2) * 256 + 1 * p.val = b.val; omega
  | ⟨1, _⟩ => show win0_7.index t (1 : Fin 2) * 256 + 1 * q.val = u.val; omega

/-! ## Each input window's block, read as the argument it shows -/

theorem in_x (c : Dev nD) (t : Fin cfg0.N) (x : Act) (hx : x = m ((c : Thread nD τ).loc main_arg0))
    (p : Fin 256) (k : Fin 2048) (b : Fin 4096) (hb : b.val = 256 * win0_7.index t (0 : Fin 2) + p.val) :
    (iblk m c 0 t : FVec Ideal S256x2048 .f32) (ix2 p k) = x (ix2 b k) := by
  subst hx
  show V m c main_arg0 (((cfg0.win 0).blk t).view.emb (ix2 p k)) = _
  rw [emb_rows0 t p k b hb]
  exact congrFun (V_main_arg0 m c) (ix2 b k)

theorem in_h (c : Dev nD) (t : Fin cfg0.N) (h : Act) (hh : h = m ((c : Thread nD τ).loc main_arg1))
    (p : Fin 256) (k : Fin 2048) (b : Fin 4096) (hb : b.val = 256 * win0_7.index t (0 : Fin 2) + p.val) :
    (iblk m c 1 t : FVec Ideal S256x2048 .f32) (ix2 p k) = h (ix2 b k) := by
  subst hh
  show V m c main_arg1 (((cfg0.win 1).blk t).view.emb (ix2 p k)) = _
  rw [emb_rows1 t p k b hb]
  exact congrFun (V_main_arg1 m c) (ix2 b k)

theorem in_wi (c : Dev nD) (t : Fin cfg0.N) (wi : Wgt) (hwi : wi = m ((c : Thread nD τ).loc main_arg3))
    (k : Fin 2048) (g : Fin 4) (q : Fin 256) (J : Fin 8) (hJ : J.val = win0_7.index t (1 : Fin 2)) :
    (iblk m c 2 t : FVec Ideal S2048x1024 .bf16) (ix2 k (lane g q)) = wi (ix2 k (gateCol J g q)) := by
  show V m c main_v7 (((cfg0.win 2).blk t).view.emb (ix2 k (lane g q))) = _
  rw [emb_cols2 t k g q J hJ]
  exact V_wi_apply m c wi hwi k J g q

theorem in_wh (c : Dev nD) (t : Fin cfg0.N) (wh : Wgt) (hwh : wh = m ((c : Thread nD τ).loc main_arg4))
    (k : Fin 2048) (g : Fin 4) (q : Fin 256) (J : Fin 8) (hJ : J.val = win0_7.index t (1 : Fin 2)) :
    (iblk m c 3 t : FVec Ideal S2048x1024 .bf16) (ix2 k (lane g q)) = wh (ix2 k (gateCol J g q)) := by
  show V m c main_v11 (((cfg0.win 3).blk t).view.emb (ix2 k (lane g q))) = _
  rw [emb_cols3 t k g q J hJ]
  exact V_wh_apply m c wh hwh k J g q

theorem in_bias (c : Dev nD) (t : Fin cfg0.N) (bi bh : Bia) (hbi : bi = m ((c : Thread nD τ).loc main_arg5))
    (hbh : bh = m ((c : Thread nD τ).loc main_arg6)) (g : Fin 4) (q : Fin 256) (J : Fin 8)
    (hJ : J.val = win0_7.index t (1 : Fin 2)) :
    (iblk m c 4 t : FVec Ideal S1x1024 .f32) (ix2 (0 : Fin 1) (lane g q))
      = bi (ix1 (gateCol J g q)) + bh (ix1 (gateCol J g q)) := by
  show V m c main_v3 (((cfg0.win 4).blk t).view.emb (ix2 (0 : Fin 1) (lane g q))) = _
  rw [emb_cols4 t g q J hJ]
  exact V_bias_apply m c bi bh hbi hbh J g q

theorem in_c (c : Dev nD) (t : Fin cfg0.N) (cOld : Act) (hc : cOld = m ((c : Thread nD τ).loc main_arg2))
    (p q : Fin 256) (b : Fin 4096) (u : Fin 2048)
    (hb : b.val = 256 * win0_7.index t (0 : Fin 2) + p.val) (hu : u.val = 256 * win0_7.index t (1 : Fin 2) + q.val) :
    (iblk m c 5 t : FVec Ideal S256x256 .f32) (ix2 p q) = cOld (ix2 b u) := by
  subst hc
  show V m c main_arg2 (((cfg0.win 5).blk t).view.emb (ix2 p q)) = _
  rw [emb_tile5 t p q b u hb hu]
  exact congrFun (V_main_arg2 m c) (ix2 b u)

/-! ## What a point writes back is a block of the specification -/

/-- WHAT POINT `t` WRITES BACK to the new cell state's array is block `t` of `cNew` of the arguments. -/
theorem flushed_cell (c : Dev nD) (t : Fin cfg0.N) (x h cOld : Act) (wi wh : Wgt) (bi bh : Bia)
    (hx : x = m ((c : Thread nD τ).loc main_arg0)) (hh : h = m ((c : Thread nD τ).loc main_arg1))
    (hc : cOld = m ((c : Thread nD τ).loc main_arg2)) (hwi : wi = m ((c : Thread nD τ).loc main_arg3))
    (hwh : wh = m ((c : Thread nD τ).loc main_arg4)) (hbi : bi = m ((c : Thread nD τ).loc main_arg5))
    (hbh : bh = m ((c : Thread nD τ).loc main_arg6)) :
    (dats m 0 c).flushed 7 t = ((cfg0.win 7).blk t).view.read (Elt Ideal) (cNew x h cOld wi wh bi bh) := by
  obtain ⟨-, -, -, -, -, -, -, -, -, -, -, -, -, -, hI, hJ⟩ := idx_facts t
  rw [Value.flushed7]
  funext y
  obtain ⟨p, q, rfl⟩ : ∃ (p q : Fin 256), y = ix2 p q := ⟨y 0, y 1, eq_ix2 (n0 := 256) (n1 := 256) y⟩
  have hp := p.isLt
  have hq := q.isLt
  have hb : (⟨256 * win0_7.index t (0 : Fin 2) + p.val, by omega⟩ : Fin 4096).val = 256 * win0_7.index t (0 : Fin 2) + p.val := rfl
  have hu : (⟨256 * win0_7.index t (1 : Fin 2) + q.val, by omega⟩ : Fin 2048).val = 256 * win0_7.index t (1 : Fin 2) + q.val := rfl
  generalize (⟨256 * win0_7.index t (0 : Fin 2) + p.val, by omega⟩ : Fin 4096) = b at hb
  generalize (⟨256 * win0_7.index t (1 : Fin 2) + q.val, by omega⟩ : Fin 2048) = u at hu
  have hJ' : (⟨win0_7.index t (1 : Fin 2), by omega⟩ : Fin 8).val = win0_7.index t (1 : Fin 2) := rfl
  generalize (⟨win0_7.index t (1 : Fin 2), by omega⟩ : Fin 8) = J at hJ'
  show out0_7 (iblk m c 0 t) (iblk m c 1 t) (iblk m c 2 t) (iblk m c 3 t) (iblk m c 4 t) (iblk m c 5 t) (ix2 p q)
      = cNew x h cOld wi wh bi bh (((cfg0.win 7).blk t).view.emb (ix2 p q))
  rw [emb_tile7 t p q b u hb hu, cNew_apply]
  unfold out0_7
  rw [Value.canon7_eq]
  rw [View.ld_unit_zero (S := S256x2048) hz, View.ld_unit_zero (S := S256x2048) hz, View.ld_unit_zero (S := S2048x1024) hz,
    View.ld_unit_zero (S := S2048x1024) hz, View.ld_unit_zero (S := S1x1024) hz, View.ld_unit_zero (S := S256x256) hz]
  exact cell_block x h cOld wi wh bi bh (iblk m c 0 t) (iblk m c 1 t) (iblk m c 2 t) (iblk m c 3 t) (iblk m c 4 t) (iblk m c 5 t)
    b J p q u (by rw [hu, hJ']) (fun k => in_x m c t x hx p k b hb) (fun k => in_h m c t h hh p k b hb)
    (fun k g => in_wi m c t wi hwi k g q J hJ') (fun k g => in_wh m c t wh hwh k g q J hJ')
    (fun g => in_bias m c t bi bh hbi hbh g q J hJ') (in_c m c t cOld hc p q b u hb hu)

/-- WHAT POINT `t` WRITES BACK to the new hidden state's array is block `t` of `hNew` of the arguments. -/
theorem flushed_hidden (c : Dev nD) (t : Fin cfg0.N) (x h cOld : Act) (wi wh : Wgt) (bi bh : Bia)
    (hx : x = m ((c : Thread nD τ).loc main_arg0)) (hh : h = m ((c : Thread nD τ).loc main_arg1))
    (hc : cOld = m ((c : Thread nD τ).loc main_arg2)) (hwi : wi = m ((c : Thread nD τ).loc main_arg3))
    (hwh : wh = m ((c : Thread nD τ).loc main_arg4)) (hbi : bi = m ((c : Thread nD τ).loc main_arg5))
    (hbh : bh = m ((c : Thread nD τ).loc main_arg6)) :
    (dats m 0 c).flushed 6 t = ((cfg0.win 6).blk t).view.read (Elt Ideal) (hNew x h cOld wi wh bi bh) := by
  obtain ⟨-, -, -, -, -, -, -, -, -, -, -, -, -, -, hI, hJ⟩ := idx_facts t
  rw [Value.flushed6]
  funext y
  obtain ⟨p, q, rfl⟩ : ∃ (p q : Fin 256), y = ix2 p q := ⟨y 0, y 1, eq_ix2 (n0 := 256) (n1 := 256) y⟩
  have hp := p.isLt
  have hq := q.isLt
  have hb : (⟨256 * win0_7.index t (0 : Fin 2) + p.val, by omega⟩ : Fin 4096).val = 256 * win0_7.index t (0 : Fin 2) + p.val := rfl
  have hu : (⟨256 * win0_7.index t (1 : Fin 2) + q.val, by omega⟩ : Fin 2048).val = 256 * win0_7.index t (1 : Fin 2) + q.val := rfl
  generalize (⟨256 * win0_7.index t (0 : Fin 2) + p.val, by omega⟩ : Fin 4096) = b at hb
  generalize (⟨256 * win0_7.index t (1 : Fin 2) + q.val, by omega⟩ : Fin 2048) = u at hu
  have hJ' : (⟨win0_7.index t (1 : Fin 2), by omega⟩ : Fin 8).val = win0_7.index t (1 : Fin 2) := rfl
  generalize (⟨win0_7.index t (1 : Fin 2), by omega⟩ : Fin 8) = J at hJ'
  show out0_6 (iblk m c 0 t) (iblk m c 1 t) (iblk m c 2 t) (iblk m c 3 t) (iblk m c 4 t) (iblk m c 5 t) (ix2 p q)
      = hNew x h cOld wi wh bi bh (((cfg0.win 6).blk t).view.emb (ix2 p q))
  rw [emb_tile6 t p q b u hb hu, hNew_apply]
  unfold out0_6
  rw [Value.canon6_eq]
  rw [View.ld_unit_zero (S := S256x2048) hz, View.ld_unit_zero (S := S256x2048) hz, View.ld_unit_zero (S := S2048x1024) hz,
    View.ld_unit_zero (S := S2048x1024) hz, View.ld_unit_zero (S := S1x1024) hz, View.ld_unit_zero (S := S256x256) hz]
  exact hidden_block x h cOld wi wh bi bh (iblk m c 0 t) (iblk m c 1 t) (iblk m c 2 t) (iblk m c 3 t) (iblk m c 4 t) (iblk m c 5 t)
    b J p q u (by rw [hu, hJ']) (fun k => in_x m c t x hx p k b hb) (fun k => in_h m c t h hh p k b hb)
    (fun k g => in_wi m c t wi hwi k g q J hJ') (fun k g => in_wh m c t wh hwh k g q J hJ')
    (fun g => in_bias m c t bi bh hbi hbh g q J hJ') (in_c m c t cOld hc p q b u hb hu)

/-! ## The 128 blocks tile each result array -/

/-- An index is in point `t`'s block of the new cell state iff each coordinate is in the block's range on its axis. -/
theorem mem_blk7 (t : Fin cfg0.N) (i : S4096x2048.Idx) :
    i ∈ ((cfg0.win 7).blk t).view.set ↔ ∀ a : Fin 2, win0_7.index t a * S256x256.size a ≤ (i a).val
      ∧ (i a).val < win0_7.index t a * S256x256.size a + S256x256.size a := by
  show i ∈ ((View.whole main_v12_1).slice (win0_7.rect t)).set ↔ _
  rw [View.set_slice_whole, Rect.mem_set_unit]
  exact Iff.rfl

theorem mem_blk6 (t : Fin cfg0.N) (i : S4096x2048.Idx) :
    i ∈ ((cfg0.win 6).blk t).view.set ↔ ∀ a : Fin 2, win0_6.index t a * S256x256.size a ≤ (i a).val
      ∧ (i a).val < win0_6.index t a * S256x256.size a + S256x256.size a := by
  show i ∈ ((View.whole main_v12_0).slice (win0_6.rect t)).set ↔ _
  rw [View.set_slice_whole, Rect.mem_set_unit]
  exact Iff.rfl

/-- Entry `(r, s)` is in the block of the point whose block index is `(r / 256, s / 256)`. -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 256, by omega⟩ ⟨(i 1).val / 256, by omega⟩
  have q0 : win0_7.index t (0 : Fin 2) = (i 0).val / 256 := congrFun ht 0
  have q1 : win0_7.index t (1 : Fin 2) = (i 1).val / 256 := congrFun ht 1
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 256 ≤ (i 1).val ∧ (i 1).val < win0_7.index t (1 : Fin 2) * 256 + 256; omega

theorem cover6 (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := idx_onto ⟨(i 0).val / 256, by omega⟩ ⟨(i 1).val / 256, by omega⟩
  have q0 : win0_7.index t (0 : Fin 2) = (i 0).val / 256 := congrFun ht 0
  have q1 : win0_7.index t (1 : Fin 2) = (i 1).val / 256 := congrFun ht 1
  obtain ⟨-, -, -, -, -, -, -, -, -, -, -, -, e60, e61, -⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 256 ≤ (i 1).val ∧ (i 1).val < win0_6.index t (1 : Fin 2) * 256 + 256; omega

/-! ## The result arrays, and the run -/

/-- The new cell state's array after the run is `cNew` of the arguments. -/
theorem final_cell (c : Dev nD) (x h cOld : Act) (wi wh : Wgt) (bi bh : Bia)
    (hx : x = m ((c : Thread nD τ).loc main_arg0)) (hh : h = m ((c : Thread nD τ).loc main_arg1))
    (hc : cOld = m ((c : Thread nD τ).loc main_arg2)) (hwi : wi = m ((c : Thread nD τ).loc main_arg3))
    (hwh : wh = m ((c : Thread nD τ).loc main_arg4)) (hbi : bi = m ((c : Thread nD τ).loc main_arg5))
    (hbh : bh = m ((c : Thread nD τ).loc main_arg6)) :
    (dats m 0 c).arrAt 7 cfg0.N = cNew x h cOld wi wh bi bh :=
  (dats m 0 c).arrAt_eq_of_cover 7 (cNew x h cOld wi wh bi bh)
    (fun t _ => flushed_cell m c t x h cOld wi wh bi bh hx hh hc hwi hwh hbi hbh) cover7

/-- The new hidden state's array after the run is `hNew` of the arguments. -/
theorem final_hidden (c : Dev nD) (x h cOld : Act) (wi wh : Wgt) (bi bh : Bia)
    (hx : x = m ((c : Thread nD τ).loc main_arg0)) (hh : h = m ((c : Thread nD τ).loc main_arg1))
    (hc : cOld = m ((c : Thread nD τ).loc main_arg2)) (hwi : wi = m ((c : Thread nD τ).loc main_arg3))
    (hwh : wh = m ((c : Thread nD τ).loc main_arg4)) (hbi : bi = m ((c : Thread nD τ).loc main_arg5))
    (hbh : bh = m ((c : Thread nD τ).loc main_arg6)) :
    (dats m 0 c).arrAt 6 cfg0.N = hNew x h cOld wi wh bi bh :=
  (dats m 0 c).arrAt_eq_of_cover 6 (hNew x h cOld wi wh bi bh)
    (fun t _ => flushed_hidden m c t x h cOld wi wh bi bh hx hh hc hwi hwh hbi hbh) cover6

/-- THE RUN, READ: every weakly fair execution ends with the two result arrays at the specification's functions of the
    arguments as launched, the arguments unchanged. -/
theorem run : θ_run defs (onTc (τ := τ) (main (F := Ideal))) ⟨m, fun _ => 0, ρ⟩ fun r => ∀ c : Dev nD,
      r.2.mem ((c : Thread nD τ).loc main_v12_0)
        = hNew (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_v12_1)
        = cNew (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
      ⟨(h c).1.trans (final_hidden m c _ _ _ _ _ _ _ rfl rfl rfl rfl rfl rfl rfl),
        (h c).2.1.trans (final_cell m c _ _ _ _ _ _ _ rfl rfl rfl rfl rfl rfl rfl),
        (h c).2.2⟩)
    (Value.run_blocks m ρ)

end Cert.KernelIdeal.Cell

end
-- ==== Proof.RefIsSpec.lean ====
/-
  The reference computes the specification.

  It forms the two whole matrix products, adds them, adds the first bias vector (broadcast down the rows) and then the
  second: at row `b`, column `n` that is the pre-activation. It cuts the 8192 columns into four consecutive groups of
  2048 — the input, forget, candidate and output gates —, applies `1 / (1 + e^(-t))` (spelt with a negation, an
  exponential, a sum with the constant one and a quotient; the constant's word is the number one) to three of them and the
  hyperbolic tangent to the third, and combines them with the old cell state. Index by index that is `cAt` and `hAt`.
-/
import proofs.«160175_j54649163874591_2_alg».proof.Proof.Gen.ReferenceIdeal.Read
import proofs.«160175_j54649163874591_2_alg».proof.Proof.LstmSpec

noncomputable section

open scoped BigOperators

namespace Cert.ReferenceIdeal.RefValue

open Cert.ReferenceIdeal Cert.ReferenceIdeal.Read Cert.Lstm Idealize.ShloMosaic Idealize.ShloMosaic.ValueIdx

/-- The word `0x3F800000` is the number one. -/
theorem one_f32 : Ideal.ofBits .f32 0x3F800000#32 = 1 := by
  simp [Ideal.ofBits, Ideal.ieee, -EReal.coe_mul]; norm_num

/-- The reference's spelling of the logistic function IS the logistic function. -/
theorem host_logistic (y : Ideal .f32) :
    FloatOps.hostDivf (F := Ideal) (φ := .f32) (FloatOps.ofBits .f32 0x3F800000#32)
        (FloatOps.addf (FloatOps.ofBits .f32 0x3F800000#32) (FloatOps.hostUnary .exp (FloatOps.hostNegf y)))
      = Ideal.logistic y := by
  show Ideal.div (Ideal.ofBits .f32 0x3F800000#32) (Ideal.ofBits .f32 0x3F800000#32 + Ideal.exp (-y)) = Ideal.div 1 (1 + Ideal.exp (-y))
  rw [one_f32]

/-- THE SUM OF THE PRODUCTS AND THE TWO BIASES at row `b`, column `n` is the pre-activation. -/
theorem stage8_apply (x0 x1 : Act) (x3 x4 : Wgt) (x5 x6 : Bia) (b : Fin 4096) (n : Fin 8192) :
    val_main_v8 (F := Ideal) x0 x1 x3 x4 x5 x6 (ix2 b n) = pre x0 x1 x3 x4 x5 x6 b n := by
  have l0 : ∀ k : Fin 2048, lidx_main_v0 (ix2 b n) k = ix2 b k :=
    fun k => funext fun a => match a with | ⟨0, _⟩ => rfl | ⟨1, _⟩ => rfl
  have r0 : ∀ k : Fin 2048, ridx_main_v0 (ix2 b n) k = ix2 k n :=
    fun k => funext fun a => match a with | ⟨0, _⟩ => rfl | ⟨1, _⟩ => rfl
  have l1 : ∀ k : Fin 2048, lidx_main_v1 (ix2 b n) k = ix2 b k :=
    fun k => funext fun a => match a with | ⟨0, _⟩ => rfl | ⟨1, _⟩ => rfl
  have r1 : ∀ k : Fin 2048, ridx_main_v1 (ix2 b n) k = ix2 k n :=
    fun k => funext fun a => match a with | ⟨0, _⟩ => rfl | ⟨1, _⟩ => rfl
  have j5 : idx_main_v3 (idx_main_v4 (ix2 b n)) = ix1 n := funext fun a => match a with | ⟨0, _⟩ => rfl
  have j6 : idx_main_v6 (idx_main_v7 (ix2 b n)) = ix1 n := funext fun a => match a with | ⟨0, _⟩ => rfl
  rw [val_main_v8_apply, val_main_v5_apply, val_main_v2_apply, val_main_v0_apply, val_main_v1_apply,
    val_main_v4_apply, val_main_v3_apply, val_main_v7_apply, val_main_v6_apply]
  simp only [l0, r0, l1, r1, j5, j6]
  rfl

/-- The four groups of columns, read at row `b`, hidden unit `u`. -/
theorem gate_input (x0 x1 : Act) (x3 x4 : Wgt) (x5 x6 : Bia) (b : Fin 4096) (u : Fin 2048) :
    val_main_v9 (F := Ideal) x0 x1 x3 x4 x5 x6 (ix2 b u) = pre x0 x1 x3 x4 x5 x6 b (gcol 0 u) := by
  have e : idx_main_v9 (ix2 b u) = ix2 b (gcol 0 u) :=
    funext fun a => match a with | ⟨0, _⟩ => rfl | ⟨1, _⟩ => Fin.ext (by show u.val = 2048 * 0 + u.val; omega)
  rw [val_main_v9_apply, e]
  exact stage8_apply x0 x1 x3 x4 x5 x6 b (gcol 0 u)

theorem gate_forget (x0 x1 : Act) (x3 x4 : Wgt) (x5 x6 : Bia) (b : Fin 4096) (u : Fin 2048) :
    val_main_v10 (F := Ideal) x0 x1 x3 x4 x5 x6 (ix2 b u) = pre x0 x1 x3 x4 x5 x6 b (gcol 1 u) := by
  have e : idx_main_v10 (ix2 b u) = ix2 b (gcol 1 u) :=
    funext fun a => match a with | ⟨0, _⟩ => rfl | ⟨1, _⟩ => Fin.ext (by show 2048 + u.val = 2048 * 1 + u.val; omega)
  rw [val_main_v10_apply, e]
  exact stage8_apply x0 x1 x3 x4 x5 x6 b (gcol 1 u)

theorem gate_candidate (x0 x1 : Act) (x3 x4 : Wgt) (x5 x6 : Bia) (b : Fin 4096) (u : Fin 2048) :
    val_main_v11 (F := Ideal) x0 x1 x3 x4 x5 x6 (ix2 b u) = pre x0 x1 x3 x4 x5 x6 b (gcol 2 u) := by
  have e : idx_main_v11 (ix2 b u) = ix2 b (gcol 2 u) :=
    funext fun a => match a with | ⟨0, _⟩ => rfl | ⟨1, _⟩ => Fin.ext (by show 4096 + u.val = 2048 * 2 + u.val; omega)
  rw [val_main_v11_apply, e]
  exact stage8_apply x0 x1 x3 x4 x5 x6 b (gcol 2 u)

theorem gate_output (x0 x1 : Act) (x3 x4 : Wgt) (x5 x6 : Bia) (b : Fin 4096) (u : Fin 2048) :
    val_main_v12 (F := Ideal) x0 x1 x3 x4 x5 x6 (ix2 b u) = pre x0 x1 x3 x4 x5 x6 b (gcol 3 u) := by
  have e : idx_main_v12 (ix2 b u) = ix2 b (gcol 3 u) :=
    funext fun a => match a with | ⟨0, _⟩ => rfl | ⟨1, _⟩ => Fin.ext (by show 6144 + u.val = 2048 * 3 + u.val; omega)
  rw [val_main_v12_apply, e]
  exact stage8_apply x0 x1 x3 x4 x5 x6 b (gcol 3 u)

/-- The three logistic gates. -/
theorem sig_input (x0 x1 : Act) (x3 x4 : Wgt) (x5 x6 : Bia) (b : Fin 4096) (u : Fin 2048) :
    val_main_v18 (F := Ideal) x0 x1 x3 x4 x5 x6 (ix2 b u) = Ideal.logistic (pre x0 x1 x3 x4 x5 x6 b (gcol 0 u)) := by
  rw [val_main_v18_apply, val_main_v17_apply, val_main_cst_0_apply, val_main_v16_apply, val_main_v15_apply,
    val_main_cst_apply, val_main_v14_apply, val_main_v13_apply, gate_input]
  exact host_logistic _

theorem sig_forget (x0 x1 : Act) (x3 x4 : Wgt) (x5 x6 : Bia) (b : Fin 4096) (u : Fin 2048) :
    val_main_v24 (F := Ideal) x0 x1 x3 x4 x5 x6 (ix2 b u) = Ideal.logistic (pre x0 x1 x3 x4 x5 x6 b (gcol 1 u)) := by
  rw [val_main_v24_apply, val_main_v23_apply, val_main_cst_2_apply, val_main_v22_apply, val_main_v21_apply,
    val_main_cst_1_apply, val_main_v20_apply, val_main_v19_apply, gate_forget]
  exact host_logistic _

theorem sig_output (x0 x1 : Act) (x3 x4 : Wgt) (x5 x6 : Bia) (b : Fin 4096) (u : Fin 2048) :
    val_main_v31 (F := Ideal) x0 x1 x3 x4 x5 x6 (ix2 b u) = Ideal.logistic (pre x0 x1 x3 x4 x5 x6 b (gcol 3 u)) := by
  rw [val_main_v31_apply, val_main_v30_apply, val_main_cst_4_apply, val_main_v29_apply, val_main_v28_apply,
    val_main_cst_3_apply, val_main_v27_apply, val_main_v26_apply, gate_output]
  exact host_logistic _

/-- THE REFERENCE'S NEW CELL STATE at `(b, u)`. -/
theorem cell_apply (x0 x1 x2 : Act) (x3 x4 : Wgt) (x5 x6 : Bia) (b : Fin 4096) (u : Fin 2048) :
    val_main_v34 (F := Ideal) x0 x1 x2 x3 x4 x5 x6 (ix2 b u) = cAt x0 x1 x2 x3 x4 x5 x6 b u := by
  rw [val_main_v34_apply, val_main_v32_apply, val_main_v33_apply, val_main_v25_apply, sig_forget, sig_input,
    gate_candidate]
  rfl

/-- THE REFERENCE'S NEW HIDDEN STATE at `(b, u)`. -/
theorem hidden_apply (x0 x1 x2 : Act) (x3 x4 : Wgt) (x5 x6 : Bia) (b : Fin 4096) (u : Fin 2048) :
    val_main_v36 (F := Ideal) x0 x1 x2 x3 x4 x5 x6 (ix2 b u) = hAt x0 x1 x2 x3 x4 x5 x6 b u := by
  rw [val_main_v36_apply, val_main_v35_apply, sig_output, cell_apply]
  rfl

/-- The reference's two results are the specification's two arrays. -/
theorem cell_eq (x0 x1 x2 : Act) (x3 x4 : Wgt) (x5 x6 : Bia) :
    val_main_v34 (F := Ideal) x0 x1 x2 x3 x4 x5 x6 = cNew x0 x1 x2 x3 x4 x5 x6 := by
  funext i
  obtain ⟨b, u, rfl⟩ : ∃ (b : Fin 4096) (u : Fin 2048), i = ix2 b u := ⟨i 0, i 1, eq_ix2 i⟩
  exact cell_apply x0 x1 x2 x3 x4 x5 x6 b u

theorem hidden_eq (x0 x1 x2 : Act) (x3 x4 : Wgt) (x5 x6 : Bia) :
    val_main_v36 (F := Ideal) x0 x1 x2 x3 x4 x5 x6 = hNew x0 x1 x2 x3 x4 x5 x6 := by
  funext i
  obtain ⟨b, u, rfl⟩ : ∃ (b : Fin 4096) (u : Fin 2048), i = ix2 b u := ⟨i 0, i 1, eq_ix2 i⟩
  exact hidden_apply x0 x1 x2 x3 x4 x5 x6 b u

end Cert.ReferenceIdeal.RefValue

end
-- ==== Proof.lean ====
/-
  One step of a long short-term memory cell: a tiled kernel against the plain formula.

  Both programs take a batch of inputs `x`, previous hidden states `h` and cell states `c` (4096 rows, 2048 columns), two
  weight matrices `Wi`, `Wh` (2048 rows, 8192 = 4 · 2048 columns: the input, forget, candidate and output gates of the
  2048 hidden units) and two bias vectors `bi`, `bh`, and return the new hidden and cell states

      c' = σ(f) · c + σ(i) · tanh(g),     h' = σ(o) · tanh(c'),     (i | f | g | o) = x · Wi + h · Wh + bi + bh.

  The reference computes the two whole products and cuts the sum into its four groups of columns. The kernel first
  regroups the columns of the weights and of `bi + bh` so that the four gates of each tile of 256 hidden units are
  adjacent, and then, on an 8 × 16 grid, computes for 256 batch rows and one tile of hidden units the 1024 gate
  pre-activations in one product per weight matrix, and from them one 256 × 256 block of each result.

  Over the extended reals the two agree entry by entry: a change of float format is the identity; the regrouping is a
  permutation of columns that the blocks undo (`Regroup`, `HostArrays`); a product into a zero accumulator is the plain
  sum over the contracted axis; the kernel's logistic function is the reference's `1 / (1 + e^(-t))`; and the only
  difference in arithmetic is that the kernel adds the two biases to one another before adding them to the products,
  which is associativity of addition and holds at the infinities too — so finiteness of the inputs is never used.
  `LstmSpec` states the two results as whole-array functions, `RefIsSpec` shows the reference computes them,
  `CellBlock` that each grid point computes its block of them, and `CellArrays` that the blocks tile the arrays.
  The idealization rewrote no operation of the kernel, so nothing is owed for it.
-/
import proofs.«160175_j54649163874591_2_alg».proof.Defs
import proofs.«160175_j54649163874591_2_alg».proof.Proof.Gen.Kernel
import proofs.«160175_j54649163874591_2_alg».proof.Proof.Gen.Kernel.Skeleton
import proofs.«160175_j54649163874591_2_alg».proof.Proof.Gen.Kernel.Launch
import proofs.«160175_j54649163874591_2_alg».proof.Proof.Gen.Kernel.Points
import proofs.«160175_j54649163874591_2_alg».proof.Proof.Gen.Kernel.Frame
import proofs.«160175_j54649163874591_2_alg».proof.Proof.Gen.KernelIdeal
import proofs.«160175_j54649163874591_2_alg».proof.Proof.Gen.KernelIdeal.Skeleton
import proofs.«160175_j54649163874591_2_alg».proof.Proof.Gen.KernelIdeal.Launch
import proofs.«160175_j54649163874591_2_alg».proof.Proof.Gen.KernelIdeal.Points
import proofs.«160175_j54649163874591_2_alg».proof.Proof.Gen.KernelIdeal.Frame
import proofs.«160175_j54649163874591_2_alg».proof.Proof.Gen.ReferenceIdeal
import proofs.«160175_j54649163874591_2_alg».proof.Proof.Gen.Pre_finite_inputs
import proofs.«160175_j54649163874591_2_alg».proof.Proof.Gen.KernelIdeal.Value
import proofs.«160175_j54649163874591_2_alg».proof.Proof.Gen.ReferenceIdeal.Run
import proofs.«160175_j54649163874591_2_alg».proof.Proof.Gen.ReferenceIdeal.Read
import proofs.«160175_j54649163874591_2_alg».proof.Proof.CellArrays
import proofs.«160175_j54649163874591_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, the kernel's two result arrays end at the specification's new hidden and cell states, and
    so do the reference's. -/
theorem algebraic : Cert.algebraic_KernelIdeal_ReferenceIdeal := by
  intro m ρ m' ρ' _ hagree
  refine ⟨_, _, Cert.KernelIdeal.Cell.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    refine (Cert.ReferenceIdeal.Read.val_main_v36_eq (F := Ideal) _ _ _ _ _ _ _).trans
      ((Cert.ReferenceIdeal.RefValue.hidden_eq _ _ _ _ _ _ _).trans ?_)
    rw [a0, a1, a2, a3, a4, a5, a6]
  · obtain ⟨a0, a1, a2, a3, a4, a5, a6⟩ := hagree c
    refine (Cert.ReferenceIdeal.Read.val_main_v34_eq (F := Ideal) _ _ _ _ _ _ _).trans
      ((Cert.ReferenceIdeal.RefValue.cell_eq _ _ _ _ _ _ _).trans ?_)
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
